-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x1 : Shape := ⟨2, ![64, 1]⟩
abbrev S1 : Shape := ⟨1, ![1]⟩
abbrev S1x64 : Shape := ⟨2, ![1, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  main_v18

def fn {F : FTy → Type} [FloatOps F] (main_arg0 : FVec F S1048576x64 .f32) (main_arg1 : FVec F S64x1 .f32) (main_arg2 : FVec F S1 .f32) (main_arg3 : FVec F S1x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_v13 main_v16
-- ==== Kernel.lean ====
abbrev S1048576x64 : Shape := ⟨2, ![1048576, 64]⟩
abbrev S64x1 : Shape := ⟨2, ![64, 1]⟩
abbrev S1 : Shape := ⟨1, ![1]⟩
abbrev S1x64 : Shape := ⟨2, ![1, 64]⟩
abbrev S64 : Shape := ⟨1, ![64]⟩
abbrev S_ : Shape := ⟨0, ![]⟩
abbrev S1x1 : Shape := ⟨2, ![1, 1]⟩
abbrev S8192x128 : Shape := ⟨2, ![8192, 128]⟩
abbrev S8192x64 : Shape := ⟨2, ![8192, 64]⟩
abbrev S64x128 : Shape := ⟨2, ![64, 128]⟩
abbrev S8192 : Shape := ⟨1, ![8192]⟩
abbrev S8192x1 : Shape := ⟨2, ![8192, 1]⟩
abbrev S1048576 : Shape := ⟨1, ![1048576]⟩

abbrev nBuf : Space → Nat
  | .hbm => 14
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S64x1, .f32⟩
  | .hbm, ⟨2, _⟩ => ⟨S1, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1048576x64, .f32⟩
  | .hbm, ⟨12, _⟩ => ⟨S8192x128, .f32⟩
  | .hbm, ⟨13, _⟩ => ⟨S1048576, .f32⟩
  | .local _ .vmem, ⟨0, _⟩ => ⟨S8192x64, .f32⟩
  | .local _ .vmem, ⟨1, _⟩ => ⟨S8192x64, .f32⟩
  | .local _ .vmem, ⟨2, _⟩ => ⟨S1x64, .f32⟩
  | .local _ .vmem, ⟨3, _⟩ => ⟨S1, .f32⟩
  | .local _ .vmem, ⟨4, _⟩ => ⟨S1x64, .f32⟩
  | .local _ .vmem, ⟨5, _⟩ => ⟨S1x1, .f32⟩
  | .local _ .vmem, ⟨6, _⟩ => ⟨S8192x64, .f32⟩
  | .local _ .vmem, ⟨7, _⟩ => ⟨S8192x64, .f32⟩
  | .local _ .vmem, ⟨8, _⟩ => ⟨S64x128, .f32⟩
  | .local _ .vmem, ⟨9, _⟩ => ⟨S64x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x1_S1x64_1_0 : S64x1.Transposes [1, 0] S1x64
  shapeCasts_S64x1_S64 : S64x1.ShapeCasts S64
  shapeCasts_S1x64_S64 : S1x64.ShapeCasts S64
  reducesTo_S64_S_d0 : S64.ReducesTo [0] S_
  h_S_ : 0 < S_.numel
  shapeCasts_S_S1x1 : S_.ShapeCasts S1x1
  inb_S8192x64_S8192x64_0_0 : ∀ a, (![0, 0] : Fin 2 → Nat) a + S8192x64.size a ≤ S8192x64.size a
  h_S8192x64 : 0 < S8192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1_S1_0 : ∀ a, (![0] : Fin 1 → Nat) a + S1.size a ≤ S1.size a
  h_S1 : 0 < S1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S8192x64 : S1x64.Broadcasts S8192x64
  reduces_S8192x64_S8192 : S8192x64.Reduces [1] S8192
  shapeCasts_S8192_S8192x1 : S8192.ShapeCasts S8192x1
  shapeCasts_S1_S1x1 : S1.ShapeCasts S1x1
  broadcasts_S1x1_S8192x1 : S1x1.Broadcasts S8192x1
  shapeCasts_S8192x1_S64x128 : S8192x1.ShapeCasts S64x128
  broadcasts_S1x1_S64x128 : S1x1.Broadcasts S64x128
  inb_S64x128_S64x128_0_0 : ∀ a, (![0, 0] : Fin 2 → Nat) a + S64x128.size a ≤ S64x128.size a
  h_S64x128 : 0 < S64x128.numel
  shapeCasts_S64x128_S8192x1 : S64x128.ShapeCasts S8192x1
  broadcasts_S8192x1_S8192x64 : S8192x1.Broadcasts S8192x64
  shapeCasts_S8192x128_S1048576 : S8192x128.ShapeCasts S1048576
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S1048576x64.size a
  hwx0_5 : ∀ i : grid0.Coords, EltTy.bits .f32 = 32 ∨ (Rect.block (s := S1048576x64) S8192x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S8192x128.size a
  hwx0_6 : ∀ i : grid0.Coords, EltTy.bits .f32 = 32 ∨ (Rect.block (s := S8192x128) S64x128.size (cc0_transform_6 i) (hinb0_6 i)).WholeWords (EltTy.packing .f32)

variable [Facts₀]

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S8192x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x1 : Shape := ⟨2, ![64, 1]⟩
abbrev S1 : Shape := ⟨1, ![1]⟩
abbrev S1x64 : Shape := ⟨2, ![1, 64]⟩
abbrev S1048576x1 : Shape := ⟨2, ![1048576, 1]⟩
abbrev S1x1 : Shape := ⟨2, ![1, 1]⟩
abbrev S64 : Shape := ⟨1, ![64]⟩
abbrev S_ : Shape := ⟨0, ![]⟩
abbrev S1048576 : Shape := ⟨1, ![1048576]⟩

abbrev nBuf : Space → Nat
  | .hbm => 28
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x1, .f32⟩
  | .hbm, ⟨2, _⟩ => ⟨S1, .f32⟩
  | .hbm, ⟨3, _⟩ => ⟨S1x64, .f32⟩
  | .hbm, ⟨4, _⟩ => ⟨S1048576x1, .f32⟩
  | .hbm, ⟨5, _⟩ => ⟨S1x1, .f32⟩
  | .hbm, ⟨6, _⟩ => ⟨S1048576x1, .f32⟩
  | .hbm, ⟨7, _⟩ => ⟨S1048576x1, .f32⟩
  | .hbm, ⟨8, _⟩ => ⟨S1048576x1, .f32⟩
  | .hbm, ⟨9, _⟩ => ⟨S1048576x64, .f32⟩
  | .hbm, ⟨10, _⟩ => ⟨S1048576x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S1048576, .f32⟩
  | .hbm, ⟨17, _⟩ => ⟨S1048576, .f32⟩
  | .hbm, ⟨18, _⟩ => ⟨S_, .f32⟩
  | .hbm, ⟨19, _⟩ => ⟨S1048576, .f32⟩
  | .hbm, ⟨20, _⟩ => ⟨S1048576, .f32⟩
  | .hbm, ⟨21, _⟩ => ⟨S1048576, .f32⟩
  | .hbm, ⟨22, _⟩ => ⟨S1048576, .f32⟩
  | .hbm, ⟨23, _⟩ => ⟨S_, .f32⟩
  | .hbm, ⟨24, _⟩ => ⟨S1048576, .f32⟩
  | .hbm, ⟨25, _⟩ => ⟨S1048576, .f32⟩
  | .hbm, ⟨26, _⟩ => ⟨S1048576, .f32⟩
  | .hbm, ⟨27, _⟩ => ⟨S1048576, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S64x1_S64 : S64x1.ShapeCasts S64
  shapeCasts_S1x64_S64 : S1x64.ShapeCasts S64
  reducesTo_S64_S_d0 : S64.ReducesTo [0] S_
  h_S_ : 0 < S_.numel
  shapeCasts_S1048576x1_S1048576 : S1048576x1.ShapeCasts S1048576
  bcast_S_S1048576 : S_.BroadcastsInDim S1048576 (![] : Fin 0 → Fin S1048576.rank)
  dot_S1048576x64_S64x1_S1048576x1_1_0_0_1_n_n_wf : DotDims.WF S1048576x64 S64x1 S1048576x1 [1] [0] [0] [1] [] []
  dot_S1048576x1_S1x64_S1048576x64_1_0_0_1_n_n_wf : DotDims.WF S1048576x1 S1x64 S1048576x64 [1] [0] [0] [1] [] []

variable [Facts₀]

def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf
def dot_S1048576x1_S1x64_S1048576x64_1_0_0_1_n_n : DotDims S1048576x1 S1x64 S1048576x64 where
  lhsContracting := [1]
  rhsContracting := [0]
  lhsNonContracting := [0]
  rhsNonContracting := [1]
  lhsBatch := []
  rhsBatch := []
  wf := dot_S1048576x1_S1x64_S1048576x64_1_0_0_1_n_n_wf

class Facts : Prop extends Facts₀ where

variable [Facts]
-- ==== Proof.Spec.lean ====
/-
  The planar flow, as mathematics over the extended reals.

  For a batch z of 1048576 rows of length 64, a column W0 (64 × 1), a bias b0 (one number) and a row W1 (1 × 64):
    a(n)   = Σ_d z(n,d) · W0(d,0) + b0          the pre-activation of row n
    t(n)   = tanh a(n)                           its activation
    x(n,q) = z(n,q) + t(n) · W1(0,q)             the row moved along W1
    ld(n)  = log |1 + (1 − t(n)²) · s|           the log of the Jacobian's determinant, s the inner product of W0 and W1
  Both programs compute exactly these; they differ only in how the rows are laid out while they do it.
  The number one is kept as the float word both programs print for it; it is never evaluated.
-/
import Idealize.ShloMosaic.PureOps.Ideal
import Idealize.ShloMosaic.Lib.ValueIdx

noncomputable section

namespace Cert.PlanarFlow

open Idealize.ShloMosaic Idealize.ShloMosaic.ValueIdx

/-- The batch, the column, the bias, the row, and the vector of per-row results. -/
abbrev Batch : Shape := ⟨2, ![1048576, 64]⟩
abbrev Col : Shape := ⟨2, ![64, 1]⟩
abbrev Bias : Shape := ⟨1, ![1]⟩
abbrev Row : Shape := ⟨2, ![1, 64]⟩
abbrev PerRow : Shape := ⟨1, ![1048576]⟩

/-- The float word both programs print for the number one. -/
abbrev one : EReal := Ideal.ofBits .f32 0x3F800000#32

/-- The activation of row n: tanh of its inner product with the column, plus the bias. -/
def act (z : Batch.Idx → EReal) (W0 : Col.Idx → EReal) (b0 : Bias.Idx → EReal) (n : Fin 1048576) : EReal :=
  Ideal.tanh ((∑ d : Fin 64, z (ix2 n d) * W0 (ix2 d (0 : Fin 1))) + b0 (ix1 (0 : Fin 1)))

/-- Entry (n, q) of the moved batch: the row's entry plus its activation times the row vector's entry. -/
def moved (z : Batch.Idx → EReal) (W0 : Col.Idx → EReal) (b0 : Bias.Idx → EReal) (W1 : Row.Idx → EReal)
    (n : Fin 1048576) (q : Fin 64) : EReal :=
  z (ix2 n q) + act z W0 b0 n * W1 (ix2 (0 : Fin 1) q)

/-- The log of the absolute value of the determinant at row n, for a given inner product s of the two vectors;
    the absolute value of u is the larger of u and −u. -/
def logAbsDet (z : Batch.Idx → EReal) (W0 : Col.Idx → EReal) (b0 : Bias.Idx → EReal) (s : EReal) (n : Fin 1048576) : EReal :=
  Ideal.log (max (one + (one - act z W0 b0 n * act z W0 b0 n) * s) (-(one + (one - act z W0 b0 n * act z W0 b0 n) * s)))

/-- The moved batch as an array. -/
def movedArr (z : Batch.Idx → EReal) (W0 : Col.Idx → EReal) (b0 : Bias.Idx → EReal) (W1 : Row.Idx → EReal) :
    Batch.Idx → EReal := fun i => moved z W0 b0 W1 (i 0) (i 1)

/-- The log-determinants as an array. -/
def logAbsDetArr (z : Batch.Idx → EReal) (W0 : Col.Idx → EReal) (b0 : Bias.Idx → EReal) (s : EReal) :
    PerRow.Idx → EReal := fun i => logAbsDet z W0 b0 s (i 0)

theorem movedArr_apply (z : Batch.Idx → EReal) (W0 : Col.Idx → EReal) (b0 : Bias.Idx → EReal) (W1 : Row.Idx → EReal)
    (n : Fin 1048576) (q : Fin 64) : movedArr z W0 b0 W1 (ix2 n q) = moved z W0 b0 W1 n q := rfl

theorem logAbsDetArr_apply (z : Batch.Idx → EReal) (W0 : Col.Idx → EReal) (b0 : Bias.Idx → EReal) (s : EReal)
    (n : Fin 1048576) : logAbsDetArr z W0 b0 s (ix1 n) = logAbsDet z W0 b0 s n := rfl

end Cert.PlanarFlow

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Body.lean ====
/-
  What one grid point computes, read entry by entry.

  A point holds 8192 consecutive rows of the batch (the block x0), the column laid out as a row (x1), the bias (x3),
  the row vector (x4) and the inner product of the two vectors (x5). It forms the 8192 pre-activations as a column,
  re-lays that column as a dense 64 × 128 tile (entry (r, l) of the tile is row 128·r + l of the block), takes tanh
  and the log-determinant on the tile, and re-lays the tanh tile back to a column to move the block's rows.
  Re-laying keeps the row-major position, so tile entry (r, l) and block row p = 128·r + l are the same number.
-/
import proofs.«168927_j54623394070880_2_alg».proof.Proof.Gen.KernelIdeal.Skeleton
import proofs.«168927_j54623394070880_2_alg».proof.Proof.Spec
import proofs.«168927_j54623394070880_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.PlanarFlow Idealize.ShloMosaic Idealize.ShloMosaic.ValueIdx

/-- A sum over the last axis of an 8192 × 64 product, at row p: the sum over the 64 columns of the products in that row. -/
theorem rowSum_apply (a b : FVec Ideal S8192x64 .f32) (h : S8192x64.Reduces [1] S8192) (hφ : FKind.Formats .f32)
    (hacc : (0x00000000#32 : BitVec 32) = FKind.add.neutral .f32 hφ) (p : Fin 8192) :
    multiReduction .add [1] S8192 (mulf a b) 0x00000000#32 h hφ hacc (ix1 p) = ∑ d : Fin 64, a (ix2 p d) * b (ix2 p d) := by
  refine (Ideal.multiReduction_add_single (mulf a b) _ h hφ hacc (ix1 p)).trans ?_
  refine Finset.sum_congr rfl fun d _ => ?_
  have e : h.lift (ix1 p) d = ix2 p d := funext fun ax => Fin.ext (by
    match ax with
    | ⟨0, _⟩ => rfl
    | ⟨1, _⟩ => rfl)
  show a (h.lift (ix1 p) d) * b (h.lift (ix1 p) d) = _
  rw [e]
  rfl

/-- The pre-activation column at row p: the row's inner product with the column vector, plus the bias. -/
theorem preact_apply (x0 : FVec Ideal S8192x64 .f32) (x1 : FVec Ideal S1x64 .f32) (x3 : FVec Ideal S1 .f32)
    (h1 : S1x64.ShapeCasts S1x64) (hb1 : S1x64.Broadcasts S8192x64) (hr : S8192x64.Reduces [1] S8192) (hφ : FKind.Formats .f32)
    (hacc : (0x00000000#32 : BitVec 32) = FKind.add.neutral .f32 hφ) (hc : S8192.ShapeCasts S8192x1)
    (hc3 : S1.ShapeCasts S1x1) (hb3 : S1x1.Broadcasts S8192x1) (p : Fin 8192) :
    addf (shapeCast S8192x1 (multiReduction .add [1] S8192 (mulf x0 (broadcastTo S8192x64 (shapeCast S1x64 x1 h1) hb1)) 0x00000000#32 hr hφ hacc) hc)
        (broadcastTo S8192x1 (shapeCast S1x1 x3 hc3) hb3) (ix2 p (0 : Fin 1))
      = (∑ d : Fin 64, x0 (ix2 p d) * x1 (ix2 (0 : Fin 1) d)) + x3 (ix1 (0 : Fin 1)) := by
  show shapeCast S8192x1 _ hc (ix2 p (0 : Fin 1)) + broadcastTo S8192x1 _ hb3 (ix2 p (0 : Fin 1)) = _
  rw [shapeCast_a_a1_apply, rowSum_apply, broadcastTo_1b_ab_apply, shapeCast_a_a1_apply]
  congr 1
  refine Finset.sum_congr rfl fun d _ => ?_
  rw [broadcastTo_1b_ab_apply, shapeCast_self]

/-- tanh of a column re-laid as the dense tile, at tile entry (r, l): tanh of the column's entry at row 128·r + l. -/
theorem tanhTile_apply (v : FVec Ideal S8192x1 .f32) (h : S8192x1.ShapeCasts S64x128) (r : Fin 64) (l : Fin 128) (p : Fin 8192)
    (hp : p.val = r.val * 128 + l.val) : tanh (shapeCast S64x128 v h) (ix2 r l) = Ideal.tanh (v (ix2 p (0 : Fin 1))) := by
  show Ideal.tanh (shapeCast S64x128 v h (ix2 r l)) = _
  refine congrArg Ideal.tanh (shapeCast_apply v h (ix2 r l) (ix2 p (0 : Fin 1)) ?_)
  rw [Shape.rowMajor_val_two, Shape.rowMajor_val_two]
  show p.val * 1 + 0 = r.val * 128 + l.val
  omega

/-- The tanh tile at (r, l) is the activation of the batch row that block row 128·r + l holds. -/
theorem pay1_apply (x0 : FVec Ideal S8192x64 .f32) (x1 : FVec Ideal S1x64 .f32) (x3 : FVec Ideal S1 .f32)
    (z : Batch.Idx → EReal) (W0 : Col.Idx → EReal) (b0 : Bias.Idx → EReal) (n : Fin 1048576)
    (r : Fin 64) (l : Fin 128) (p : Fin 8192) (hp : p.val = r.val * 128 + l.val)
    (h0 : ∀ d : Fin 64, x0 (ix2 p d) = z (ix2 n d)) (h1 : ∀ d : Fin 64, x1 (ix2 (0 : Fin 1) d) = W0 (ix2 d (0 : Fin 1)))
    (h3 : x3 (ix1 (0 : Fin 1)) = b0 (ix1 (0 : Fin 1))) :
    k0_pay1 (F := Ideal) x0 x1 x3 (ix2 r l) = act z W0 b0 n := by
  unfold k0_pay1 act
  refine (tanhTile_apply _ _ r l p hp).trans (congrArg Ideal.tanh ?_)
  refine (preact_apply x0 x1 x3 _ _ _ _ _ _ _ _ p).trans ?_
  rw [h3]
  congr 1
  exact Finset.sum_congr rfl fun d _ => by rw [h0 d, h1 d]

/-- The log-determinant tile at (r, l), for the inner product the point was handed. -/
theorem pay2_apply (x0 : FVec Ideal S8192x64 .f32) (x1 : FVec Ideal S1x64 .f32) (x3 : FVec Ideal S1 .f32) (x5 : FVec Ideal S1x1 .f32)
    (z : Batch.Idx → EReal) (W0 : Col.Idx → EReal) (b0 : Bias.Idx → EReal) (s : EReal) (n : Fin 1048576)
    (r : Fin 64) (l : Fin 128) (p : Fin 8192) (hp : p.val = r.val * 128 + l.val)
    (h0 : ∀ d : Fin 64, x0 (ix2 p d) = z (ix2 n d)) (h1 : ∀ d : Fin 64, x1 (ix2 (0 : Fin 1) d) = W0 (ix2 d (0 : Fin 1)))
    (h3 : x3 (ix1 (0 : Fin 1)) = b0 (ix1 (0 : Fin 1))) (h5 : x5 (ix2 (0 : Fin 1) (0 : Fin 1)) = s) :
    k0_pay2 (F := Ideal) x0 x1 x3 x5 (ix2 r l) = logAbsDet z W0 b0 s n := by
  have ht := pay1_apply x0 x1 x3 z W0 b0 n r l p hp h0 h1 h3
  unfold k0_pay2 logAbsDet
  show Ideal.log (max (one + (one - k0_pay1 (F := Ideal) x0 x1 x3 (ix2 r l) * k0_pay1 (F := Ideal) x0 x1 x3 (ix2 r l)) * broadcastTo S64x128 (shapeCast S1x1 x5 _) _ (ix2 r l))
      (-(one + (one - k0_pay1 (F := Ideal) x0 x1 x3 (ix2 r l) * k0_pay1 (F := Ideal) x0 x1 x3 (ix2 r l)) * broadcastTo S64x128 (shapeCast S1x1 x5 _) _ (ix2 r l)))) = _
  have hs : broadcastTo S64x128 (shapeCast S1x1 x5 shapeCasts_S1x1_S1x1) broadcasts_S1x1_S64x128 (ix2 r l) = s := by
    refine (broadcastTo_apply _ _ (ix2 r l) (ix2 (0 : Fin 1) (0 : Fin 1)) fun ax => ?_).trans ?_
    · match ax with
      | ⟨0, _⟩ => rfl
      | ⟨1, _⟩ => rfl
    · rw [shapeCast_self]; exact h5
  rw [ht, hs]

/-- The moved block at (p, q): the block's entry plus the activation of its row times the row vector's entry. -/
theorem pay3_apply (x0 : FVec Ideal S8192x64 .f32) (x1 : FVec Ideal S1x64 .f32) (x3 : FVec Ideal S1 .f32) (x4 : FVec Ideal S1x64 .f32)
    (z : Batch.Idx → EReal) (W0 : Col.Idx → EReal) (b0 : Bias.Idx → EReal) (W1 : Row.Idx → EReal) (n : Fin 1048576)
    (p : Fin 8192) (q : Fin 64)
    (h0 : ∀ d : Fin 64, x0 (ix2 p d) = z (ix2 n d)) (h1 : ∀ d : Fin 64, x1 (ix2 (0 : Fin 1) d) = W0 (ix2 d (0 : Fin 1)))
    (h3 : x3 (ix1 (0 : Fin 1)) = b0 (ix1 (0 : Fin 1))) (h4 : x4 (ix2 (0 : Fin 1) q) = W1 (ix2 (0 : Fin 1) q)) :
    k0_pay3 (F := Ideal) x0 x1 x3 x4 (ix2 p q) = moved z W0 b0 W1 n q := by
  have hr : p.val / 128 < 64 := by have := p.isLt; omega
  have hl : p.val % 128 < 128 := Nat.mod_lt _ (by decide)
  have ht := pay1_apply x0 x1 x3 z W0 b0 n ⟨p.val / 128, hr⟩ ⟨p.val % 128, hl⟩ p (by show p.val = p.val / 128 * 128 + p.val % 128; omega) h0 h1 h3
  unfold k0_pay3 moved
  show x0 (ix2 p q) + broadcastTo S8192x64 (shapeCast S8192x1 (k0_pay1 (F := Ideal) x0 x1 x3) _) _ (ix2 p q) * broadcastTo S8192x64 x4 _ (ix2 p q) = _
  rw [broadcastTo_a1_ab_apply, broadcastTo_1b_ab_apply, h4, h0 q]
  refine congrArg (fun t : EReal => z (ix2 n q) + t * W1 (ix2 (0 : Fin 1) q)) ?_
  refine (shapeCast_apply _ _ (ix2 p (0 : Fin 1)) (ix2 (⟨p.val / 128, hr⟩ : Fin 64) (⟨p.val % 128, hl⟩ : Fin 128)) ?_).trans ht
  rw [Shape.rowMajor_val_two, Shape.rowMajor_val_two]
  show p.val / 128 * 128 + p.val % 128 = p.val * 1 + 0
  omega

end Cert.KernelIdeal.Body

end
-- ==== Proof.HostSide.lean ====
/-
  The two arrays the program prepares on the host before the launch.

  The column W0 (64 × 1) is handed to the kernel transposed, as a row (1 × 64): entry (0, d) of the row is entry (d, 0)
  of the column. The inner product of W0 and W1 is computed once, by flattening both to length 64, multiplying
  entrywise and summing from zero, and is handed over as a 1 × 1 array. The reference computes the inner product
  by the very same operations, so it is carried here as one number and never opened.
-/
import proofs.«168927_j54623394070880_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The inner product of the column and the row, as the host computes it: both flattened to length 64, multiplied
    entrywise, summed from zero. -/
def innerProd (W0 : FVec Ideal S64x1 .f32) (W1 : FVec Ideal S1x64 .f32) : EReal :=
  Host.reduceAdd (F := Ideal) (mulf (shapeCast S64 W0 shapeCasts_S64x1_S64) (shapeCast S64 W1 shapeCasts_S1x64_S64))
    (constant (F := Ideal) S_ .f32 0x00000000#32) reducesTo_S64_S_d0 h_S_ ix0

/-- The row the kernel is handed is the column transposed. -/
theorem transposed_eq (c : Dev nD) :
    (V m c main_v0 : S1x64.Idx → EReal)
      = transpose S1x64 [1, 0] (m ((c : Thread nD τ).loc main_arg1) : S64x1.Idx → EReal) transposes_S64x1_S1x64_1_0 := by
  show StableHlo.after hostOps0 (fun b => m (c, b)) (Proc.devRef .tc main_v0) = _
  after_results <;> rfl

/-- Entry (0, d) of that row is entry (d, 0) of the column. -/
theorem transposed_apply (c : Dev nD) (d : Fin 64) :
    (V m c main_v0 : S1x64.Idx → EReal) (ix2 (0 : Fin 1) d)
      = (m ((c : Thread nD τ).loc main_arg1) : S64x1.Idx → EReal) (ix2 d (0 : Fin 1)) := by
  rw [transposed_eq]
  exact transpose_ix2_apply _ _ (0 : Fin 1) d

/-- The 1 × 1 array the kernel is handed is the inner product, reshaped. -/
theorem handed_eq (c : Dev nD) :
    (V m c main_v5 : S1x1.Idx → EReal)
      = shapeCast S1x1 (Host.reduceAdd (F := Ideal) (mulf (shapeCast S64 (m ((c : Thread nD τ).loc main_arg1) : S64x1.Idx → EReal) shapeCasts_S64x1_S64)
          (shapeCast S64 (m ((c : Thread nD τ).loc main_arg3) : S1x64.Idx → EReal) shapeCasts_S1x64_S64))
        (constant (F := Ideal) S_ .f32 0x00000000#32) reducesTo_S64_S_d0 h_S_) shapeCasts_S_S1x1 := by
  show StableHlo.after hostOps0 (fun b => m (c, b)) (Proc.devRef .tc main_v5) = _
  after_results <;> rfl

/-- Its one entry is the inner product. -/
theorem handed_apply (c : Dev nD) :
    (V m c main_v5 : S1x1.Idx → EReal) (ix2 (0 : Fin 1) (0 : Fin 1))
      = innerProd (m ((c : Thread nD τ).loc main_arg1)) (m ((c : Thread nD τ).loc main_arg3)) := by
  rw [handed_eq]
  unfold innerProd
  refine shapeCast_apply _ shapeCasts_S_S1x1 (ix2 (0 : Fin 1) (0 : Fin 1)) ix0 ?_
  have h1 : (S_.rowMajor ix0).val < 1 := (S_.rowMajor ix0).isLt
  have h2 : (S1x1.rowMajor (ix2 (0 : Fin 1) (0 : Fin 1))).val < 1 := (S1x1.rowMajor (ix2 (0 : Fin 1) (0 : Fin 1))).isLt
  omega

end Cert.KernelIdeal.HostSide

end
-- ==== Proof.Moved.lean ====
/-
  The first result, the moved batch, as one array.

  The grid has 128 points; point t is handed rows 8192·t … 8192·t + 8191 of the batch and writes back the same rows of
  the result. The column (as a row), the bias, the row vector and the inner product are handed whole to every point.
  So what point t writes back is rows 8192·t … of ONE array, the moved batch of the specification; the 128 row
  blocks cover all 1048576 rows (row n lies in block n / 8192), hence the result array is the moved batch.
-/
import proofs.«168927_j54623394070880_2_alg».proof.Proof.Gen.KernelIdeal.Frame
import proofs.«168927_j54623394070880_2_alg».proof.Proof.Body
import proofs.«168927_j54623394070880_2_alg».proof.Proof.HostSide
import Idealize.ShloMosaic.Lib.Pipeline.Value

noncomputable section

namespace Cert.KernelIdeal.Blocks

open Cert.KernelIdeal Cert.KernelIdeal.Gen Cert.PlanarFlow Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The four arguments as launched, and the inner product of the column and the row. -/
abbrev argZ (c : Dev nD) : Batch.Idx → EReal := m ((c : Thread nD τ).loc main_arg0)
abbrev argW0 (c : Dev nD) : Col.Idx → EReal := m ((c : Thread nD τ).loc main_arg1)
abbrev argB0 (c : Dev nD) : Bias.Idx → EReal := m ((c : Thread nD τ).loc main_arg2)
abbrev argW1 (c : Dev nD) : Row.Idx → EReal := m ((c : Thread nD τ).loc main_arg3)
abbrev argS (c : Dev nD) : EReal := HostSide.innerProd (argW0 m c) (argW1 m c)

/-- Which block each window is on at point t: the batch and the two results on block t of their rows, the rest on
    their one block. Decided over the 128 points. -/
theorem where_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row y of the batch block at point t is row 8192·t + y of the batch. -/
theorem batch_block (c : Dev nD) (t : Fin cfg0.N) (y : S8192x64.Idx) (k : S1048576x64.Idx)
    (hk0 : (k 0).val = t.val * 8192 + (y 0).val) (hk1 : (k 1).val = (y 1).val) :
    (iblk m c 0 t : Vec Ideal S8192x64 .f32) y = argZ m c k := by
  obtain ⟨e0, e1, -⟩ := where_at t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * (y 0).val = (k 0).val; omega
  | ⟨1, _⟩ => show win0_0.index t (1 : Fin 2) * 64 + 1 * (y 1).val = (k 1).val; omega

/-- The row the kernel reads at every point is the column transposed. -/
theorem column_block (c : Dev nD) (t : Fin cfg0.N) (d : Fin 64) :
    (iblk m c 1 t : Vec Ideal S1x64 .f32) (ix2 (0 : Fin 1) d) = argW0 m c (ix2 d (0 : Fin 1)) := by
  obtain ⟨-, -, e0, e1, -⟩ := where_at t
  refine Eq.trans ?_ (HostSide.transposed_apply m c d)
  unfold iblk
  rw [View.read_apply]
  show V m c main_v0 _ = _
  refine congrArg _ (funext fun a => Fin.ext ?_)
  match a with
  | ⟨0, _⟩ => show win0_1.index t (0 : Fin 2) * 1 + 1 * 0 = 0; omega
  | ⟨1, _⟩ => show win0_1.index t (1 : Fin 2) * 64 + 1 * d.val = d.val; omega

/-- The bias, at every point. -/
theorem bias_block (c : Dev nD) (t : Fin cfg0.N) :
    (iblk m c 2 t : Vec Ideal S1 .f32) (ix1 (0 : Fin 1)) = argB0 m c (ix1 (0 : Fin 1)) := by
  obtain ⟨-, -, -, -, e0, -⟩ := where_at t
  unfold iblk
  rw [View.read_apply]
  show V m c main_arg2 _ = _
  rw [V_main_arg2]
  refine congrArg _ (funext fun a => Fin.ext ?_)
  match a with
  | ⟨0, _⟩ => show win0_2.index t (0 : Fin 1) * 1 + 1 * 0 = 0; omega

/-- The row vector, at every point. -/
theorem row_block (c : Dev nD) (t : Fin cfg0.N) (q : Fin 64) :
    (iblk m c 3 t : Vec Ideal S1x64 .f32) (ix2 (0 : Fin 1) q) = argW1 m c (ix2 (0 : Fin 1) q) := by
  obtain ⟨-, -, -, -, -, e0, e1, -⟩ := where_at t
  unfold iblk
  rw [View.read_apply]
  show V m c main_arg3 _ = _
  rw [V_main_arg3]
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- The inner product, at every point. -/
theorem inner_block (c : Dev nD) (t : Fin cfg0.N) :
    (iblk m c 4 t : Vec Ideal S1x1 .f32) (ix2 (0 : Fin 1) (0 : Fin 1)) = argS m c := by
  obtain ⟨-, -, -, -, -, -, -, e0, e1, -⟩ := where_at t
  refine Eq.trans ?_ (HostSide.handed_apply m c)
  unfold iblk
  rw [View.read_apply]
  show V m c main_v5 _ = _
  refine congrArg _ (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## The moved batch -/

/-- The first result: the moved batch of the arguments. -/
abbrev movedOf (c : Dev nD) : S1048576x64.Idx → EReal := movedArr (argZ m c) (argW0 m c) (argB0 m c) (argW1 m c)

/-- Entry y of what the body leaves at point t is entry i of the moved batch, when i is y's place in the batch. -/
theorem moved_point (c : Dev nD) (t : Fin cfg0.N) (y : S8192x64.Idx) (i : S1048576x64.Idx)
    (hi0 : (i 0).val = t.val * 8192 + (y 0).val) (hi1 : (i 1).val = (y 1).val) :
    k0_pay3 (F := Ideal) (iblk m c 0 t) (iblk m c 1 t) (iblk m c 2 t) (iblk m c 3 t) y = movedOf m c i := by
  obtain ⟨p, q, rfl⟩ : ∃ (p : Fin 8192) (q : Fin 64), y = ix2 p q := ⟨y 0, y 1, eq_ix2 y⟩
  obtain ⟨n, q', rfl⟩ : ∃ (n : Fin 1048576) (q' : Fin 64), i = ix2 n q' := ⟨i 0, i 1, eq_ix2 i⟩
  obtain rfl : q' = q := Fin.ext hi1
  show _ = moved (argZ m c) (argW0 m c) (argB0 m c) (argW1 m c) n q'
  exact Body.pay3_apply (iblk m c 0 t) (iblk m c 1 t) (iblk m c 2 t) (iblk m c 3 t) (argZ m c) (argW0 m c) (argB0 m c) (argW1 m c) n p q'
    (fun d => batch_block m c t (ix2 p d) (ix2 n d) hi0 rfl) (fun d => column_block m c t d) (bias_block m c t) (row_block m c t q')

/-- WHAT POINT t WRITES BACK to the first result is block t of the moved batch. -/
theorem moved_flushed (c : Dev nD) (t : Fin cfg0.N) :
    (dats m 0 c).flushed 5 t = ((cfg0.win 5).blk t).view.read (Elt Ideal) (movedOf m c) := by
  show (cfg0.win 5).cut (grid0.coords t) ((dats m 0 c).after 5 t) = _
  rw [after0_5]
  unfold out0_5
  rw [View.canon_unit_zero zeros2]
  simp only [View.ld_unit_zero (S := S8192x64) zeros2, View.ld_unit_zero (S := S1x64) zeros2, View.ld_unit_zero (S := S1) zeros1]
  obtain ⟨-, -, -, -, -, -, -, -, -, e0, e1, -⟩ := where_at t
  funext j
  show k0_pay3 (F := Ideal) (iblk m c 0 t) (iblk m c 1 t) (iblk m c 2 t) (iblk m c 3 t) j = movedOf m c (((cfg0.win 5).blk t).view.emb j)
  refine moved_point m c t j _ ?_ ?_
  · show win0_5.index t (0 : Fin 2) * 8192 + 1 * (j 0).val = t.val * 8192 + (j 0).val; omega
  · show win0_5.index t (1 : Fin 2) * 64 + 1 * (j 1).val = (j 1).val; omega

/-- An index of the first result is in point t's block iff each coordinate is in the block's range on its axis. -/
theorem moved_mem (t : Fin cfg0.N) (i : S1048576x64.Idx) :
    i ∈ ((cfg0.win 5).blk t).view.set ↔ ∀ a : Fin 2, win0_5.index t a * S8192x64.size a ≤ (i a).val ∧ (i a).val < win0_5.index t a * S8192x64.size a + S8192x64.size a := by
  show i ∈ ((View.whole main_v6_0).slice (win0_5.rect t)).set ↔ _
  rw [View.set_slice_whole, Rect.mem_set_unit]
  exact Iff.rfl

/-- Row n of the first result lies in the block of point n / 8192. -/
theorem moved_cover (i : S1048576x64.Idx) : ∃ t : Fin cfg0.N, (cfg0.win 5).flush t = true ∧ i ∈ ((cfg0.win 5).blk t).view.set := by
  have hN : cfg0.N = 128 := N_0
  have hi0 : (i 0).val < 1048576 := (i 0).isLt
  have hi1 : (i 1).val < 64 := (i 1).isLt
  refine ⟨⟨(i 0).val / 8192, by rw [hN]; omega⟩, flush0_5 _, ?_⟩
  rw [moved_mem]
  obtain ⟨-, -, -, -, -, -, -, -, -, e0, e1, -⟩ := where_at ⟨(i 0).val / 8192, by rw [hN]; omega⟩
  intro a
  match a with
  | ⟨0, _⟩ =>
    show win0_5.index ⟨(i 0).val / 8192, _⟩ (0 : Fin 2) * 8192 ≤ (i 0).val ∧ (i 0).val < win0_5.index ⟨(i 0).val / 8192, _⟩ (0 : Fin 2) * 8192 + 8192
    rw [e0]; show (i 0).val / 8192 * 8192 ≤ (i 0).val ∧ (i 0).val < (i 0).val / 8192 * 8192 + 8192; omega
  | ⟨1, _⟩ =>
    show win0_5.index ⟨(i 0).val / 8192, _⟩ (1 : Fin 2) * 64 ≤ (i 1).val ∧ (i 1).val < win0_5.index ⟨(i 0).val / 8192, _⟩ (1 : Fin 2) * 64 + 64
    rw [e1]; omega

/-- THE FIRST RESULT after the run is the moved batch. -/
theorem moved_final (c : Dev nD) : (dats m 0 c).arrAt 5 cfg0.N = movedOf m c :=
  (dats m 0 c).arrAt_eq_of_cover 5 (movedOf m c) (fun t _ => moved_flushed m c t) moved_cover

end Cert.KernelIdeal.Blocks

end
-- ==== Proof.LogDet.lean ====
/-
  The second result, the log-determinants, as one array.

  Point t writes its 8192 log-determinants as a dense 64 × 128 tile, into rows 64·t … 64·t + 63 of an 8192 × 128 array;
  entry (a, l) of that array therefore belongs to batch row 128·a + l. After the launch the host flattens the array
  row by row to length 1048576, which puts the log-determinant of batch row n at position n.
-/
import proofs.«168927_j54623394070880_2_alg».proof.Proof.Moved

noncomputable section

namespace Cert.KernelIdeal.Blocks

open Cert.KernelIdeal Cert.KernelIdeal.Gen Cert.PlanarFlow Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The batch row that entry (a, l) of the dense array belongs to. -/
def rowOf (a : Fin 8192) (l : Fin 128) : Fin 1048576 := ⟨a.val * 128 + l.val, by have := a.isLt; have := l.isLt; omega⟩

/-- The dense array: entry (a, l) is the log-determinant of batch row 128·a + l. -/
def denseOf (c : Dev nD) : S8192x128.Idx → EReal := fun i =>
  logAbsDet (argZ m c) (argW0 m c) (argB0 m c) (argS m c) (rowOf (i 0) (i 1))

theorem denseOf_apply (c : Dev nD) (a : Fin 8192) (l : Fin 128) :
    denseOf m c (ix2 a l) = logAbsDet (argZ m c) (argW0 m c) (argB0 m c) (argS m c) (rowOf a l) := rfl

/-- Entry y of the tile the body leaves at point t is entry i of the dense array, when i is y's place in it. -/
theorem dense_point (c : Dev nD) (t : Fin cfg0.N) (y : S64x128.Idx) (i : S8192x128.Idx)
    (hi0 : (i 0).val = t.val * 64 + (y 0).val) (hi1 : (i 1).val = (y 1).val) :
    k0_pay2 (F := Ideal) (iblk m c 0 t) (iblk m c 1 t) (iblk m c 2 t) (iblk m c 4 t) y = denseOf m c i := by
  obtain ⟨r, l, rfl⟩ : ∃ (r : Fin 64) (l : Fin 128), y = ix2 r l := ⟨y 0, y 1, eq_ix2 y⟩
  obtain ⟨a, l', rfl⟩ : ∃ (a : Fin 8192) (l' : Fin 128), i = ix2 a l' := ⟨i 0, i 1, eq_ix2 i⟩
  obtain rfl : l' = l := Fin.ext hi1
  have hi0' : a.val = t.val * 64 + r.val := hi0
  have hp : r.val * 128 + l'.val < 8192 := by have := r.isLt; have := l'.isLt; omega
  show _ = logAbsDet (argZ m c) (argW0 m c) (argB0 m c) (argS m c) (rowOf a l')
  exact Body.pay2_apply (iblk m c 0 t) (iblk m c 1 t) (iblk m c 2 t) (iblk m c 4 t) (argZ m c) (argW0 m c) (argB0 m c) (argS m c)
    (rowOf a l') r l' ⟨r.val * 128 + l'.val, hp⟩ rfl
    (fun d => batch_block m c t (ix2 (⟨r.val * 128 + l'.val, hp⟩ : Fin 8192) d) (ix2 (rowOf a l') d)
      (by show a.val * 128 + l'.val = t.val * 8192 + (r.val * 128 + l'.val); omega) rfl)
    (fun d => column_block m c t d) (bias_block m c t) (inner_block m c t)

/-- WHAT POINT t WRITES BACK to the dense array is block t of it. -/
theorem dense_flushed (c : Dev nD) (t : Fin cfg0.N) :
    (dats m 0 c).flushed 6 t = ((cfg0.win 6).blk t).view.read (Elt Ideal) (denseOf m c) := by
  show (cfg0.win 6).cut (grid0.coords t) ((dats m 0 c).after 6 t) = _
  rw [after0_6]
  unfold out0_6
  rw [View.canon_unit_zero zeros2]
  simp only [View.ld_unit_zero (S := S8192x64) zeros2, View.ld_unit_zero (S := S1x64) zeros2, View.ld_unit_zero (S := S1) zeros1,
    View.ld_unit_zero (S := S1x1) zeros2]
  obtain ⟨-, -, -, -, -, -, -, -, -, -, -, e0, e1⟩ := where_at t
  funext j
  show k0_pay2 (F := Ideal) (iblk m c 0 t) (iblk m c 1 t) (iblk m c 2 t) (iblk m c 4 t) j = denseOf m c (((cfg0.win 6).blk t).view.emb j)
  refine dense_point m c t j _ ?_ ?_
  · show win0_6.index t (0 : Fin 2) * 64 + 1 * (j 0).val = t.val * 64 + (j 0).val; omega
  · show win0_6.index t (1 : Fin 2) * 128 + 1 * (j 1).val = (j 1).val; omega

/-- An index of the dense array is in point t's block iff each coordinate is in the block's range on its axis. -/
theorem dense_mem (t : Fin cfg0.N) (i : S8192x128.Idx) :
    i ∈ ((cfg0.win 6).blk t).view.set ↔ ∀ a : Fin 2, win0_6.index t a * S64x128.size a ≤ (i a).val ∧ (i a).val < win0_6.index t a * S64x128.size a + S64x128.size a := by
  show i ∈ ((View.whole main_v6_1).slice (win0_6.rect t)).set ↔ _
  rw [View.set_slice_whole, Rect.mem_set_unit]
  exact Iff.rfl

/-- Row a of the dense array lies in the block of point a / 64. -/
theorem dense_cover (i : S8192x128.Idx) : ∃ t : Fin cfg0.N, (cfg0.win 6).flush t = true ∧ i ∈ ((cfg0.win 6).blk t).view.set := by
  have hN : cfg0.N = 128 := N_0
  have hi0 : (i 0).val < 8192 := (i 0).isLt
  have hi1 : (i 1).val < 128 := (i 1).isLt
  refine ⟨⟨(i 0).val / 64, by rw [hN]; omega⟩, flush0_6 _, ?_⟩
  rw [dense_mem]
  obtain ⟨-, -, -, -, -, -, -, -, -, -, -, e0, e1⟩ := where_at ⟨(i 0).val / 64, by rw [hN]; omega⟩
  intro a
  match a with
  | ⟨0, _⟩ =>
    show win0_6.index ⟨(i 0).val / 64, _⟩ (0 : Fin 2) * 64 ≤ (i 0).val ∧ (i 0).val < win0_6.index ⟨(i 0).val / 64, _⟩ (0 : Fin 2) * 64 + 64
    rw [e0]; show (i 0).val / 64 * 64 ≤ (i 0).val ∧ (i 0).val < (i 0).val / 64 * 64 + 64; omega
  | ⟨1, _⟩ =>
    show win0_6.index ⟨(i 0).val / 64, _⟩ (1 : Fin 2) * 128 ≤ (i 1).val ∧ (i 1).val < win0_6.index ⟨(i 0).val / 64, _⟩ (1 : Fin 2) * 128 + 128
    rw [e1]; omega

/-- THE DENSE ARRAY after the run. -/
theorem dense_final (c : Dev nD) : (dats m 0 c).arrAt 6 cfg0.N = denseOf m c :=
  (dats m 0 c).arrAt_eq_of_cover 6 (denseOf m c) (fun t _ => dense_flushed m c t) dense_cover

/-! ## Flattened -/

/-- The second result: the log-determinants of the arguments, one per batch row. -/
abbrev logDetOf (c : Dev nD) : S1048576.Idx → EReal := logAbsDetArr (argZ m c) (argW0 m c) (argB0 m c) (argS m c)

/-- The dense array flattened row by row is the log-determinants in batch order: position n comes from entry
    (n / 128, n mod 128), which belongs to batch row n. -/
theorem flatten_dense (c : Dev nD) (h : S8192x128.ShapeCasts S1048576) : shapeCast S1048576 (denseOf m c) h = logDetOf m c := by
  funext i
  obtain ⟨n, rfl⟩ : ∃ n : Fin 1048576, i = ix1 n := ⟨i 0, eq_ix1 i⟩
  have ha : n.val / 128 < 8192 := by have := n.isLt; omega
  have hl : n.val % 128 < 128 := Nat.mod_lt _ (by decide)
  refine (shapeCast_apply _ h (ix1 n) (ix2 (⟨n.val / 128, ha⟩ : Fin 8192) (⟨n.val % 128, hl⟩ : Fin 128)) ?_).trans ?_
  · rw [Shape.rowMajor_val_two, Shape.rowMajor_val_one]
    show n.val / 128 * 128 + n.val % 128 = n.val
    omega
  · show logAbsDet (argZ m c) (argW0 m c) (argB0 m c) (argS m c) (rowOf ⟨n.val / 128, ha⟩ ⟨n.val % 128, hl⟩) = logAbsDet (argZ m c) (argW0 m c) (argB0 m c) (argS m c) n
    refine congrArg _ (Fin.ext ?_)
    show n.val / 128 * 128 + n.val % 128 = n.val
    omega

end Cert.KernelIdeal.Blocks

end
-- ==== Proof.KernelRun.lean ====
/-
  The idealized kernel's run, read: its first result ends as the moved batch and its second as the log-determinants
  in batch order, with the four arguments unchanged.

  The first result is the launch's first output array. The second is what the host makes of the launch's dense
  array afterwards: one reshape, row by row, to length 1048576.
-/
import proofs.«168927_j54623394070880_2_alg».proof.Proof.LogDet
import Idealize.ShloMosaic.Lib.StableHlo.Run

noncomputable section

namespace Cert.KernelIdeal.Blocks

open Cert.KernelIdeal Cert.KernelIdeal.Gen Cert.PlanarFlow Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

/-- What the host's last line leaves in the second result: the dense array as the launch left it, flattened. -/
theorem flattened_after (c : Dev nD) :
    Pipeline.afterTail₀ cfgs (dats m) 0 (V0 m) [hostOps1] c main_v7 = logDetOf m c := by
  unfold Pipeline.afterTail₀
  show StableHlo.after hostOps1 _ (Proc.devRef .tc main_v7) = _
  after_results
  rw [Pipeline.withArrays_arr spec0 launch0.win.arr_inj c _ _ 6, dense_final]
  exact flatten_dense m c _

/-- The run of the idealized kernel, with both results named. -/
theorem run : θ_run defs (onTc (τ := τ) (main (F := Ideal))) ⟨m, fun _ => 0, ρ⟩ fun r => ∀ c : Dev nD,
      r.2.mem ((c.tc : Thread nD τ).loc main_v6_0) = movedOf m c
      ∧ r.2.mem ((c.tc : Thread nD τ).loc main_v7) = logDetOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 5).trans (moved_final m c),
      ((h c).2 main_v7 (Pipeline.mem_restRefs_of main_v7 (by decide) (by decide))).trans (flattened_after m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Blocks

end
-- ==== Proof.RefSpec.lean ====
/-
  The reference computes the specification.

  Its activation column is tanh of the matrix product of the batch with the column plus the bias: at row n the
  product is the sum over d of z(n,d)·W0(d,0). Its moved batch adds the product of the activation column (n × 1)
  with the row vector (1 × 64): a sum over a single term, t(n)·W1(0,q). Its log-determinants flatten the activation
  column to a vector and apply 1 + (1 − t²)·s, absolute value and log entrywise, s being its own inner product of
  the two vectors, which is carried as one number.
-/
import proofs.«168927_j54623394070880_2_alg».proof.Proof.Gen.ReferenceIdeal.Read
import proofs.«168927_j54623394070880_2_alg».proof.Proof.Spec

noncomputable section

namespace Cert.ReferenceIdeal.Hand

open Cert.ReferenceIdeal Cert.ReferenceIdeal.Read Cert.PlanarFlow Idealize.ShloMosaic Idealize.ShloMosaic.ValueIdx

/-- The reference's inner product of the column and the row. -/
def innerProd (x1 : FVec Ideal S64x1 .f32) (x3 : FVec Ideal S1x64 .f32) : EReal := val_main_v10 (F := Ideal) x1 x3 ix0

/-- The activation column at row n is the specification's activation of row n. -/
theorem act_at (x0 : FVec Ideal S1048576x64 .f32) (x1 : FVec Ideal S64x1 .f32) (x2 : FVec Ideal S1 .f32) (j : S1048576x1.Idx)
    (n : Fin 1048576) (hj : (j 0).val = n.val) : val_main_v4 (F := Ideal) x0 x1 x2 j = act x0 x1 x2 n := by
  have hj1 : (j 1).val < 1 := (j 1).isLt
  have el : ∀ k : Fin 64, lidx_main_v0 j k = ix2 n k := fun k => funext fun a => Fin.ext (by
    match a with
    | ⟨0, _⟩ => exact hj
    | ⟨1, _⟩ => rfl)
  have er : ∀ k : Fin 64, ridx_main_v0 j k = ix2 k (0 : Fin 1) := fun k => funext fun a => Fin.ext (by
    match a with
    | ⟨0, _⟩ => rfl
    | ⟨1, _⟩ => show (j 1).val = 0; omega)
  have eb : idx_main_v1 (idx_main_v2 j) = ix1 (0 : Fin 1) := funext fun a => Fin.ext (by
    match a with
    | ⟨0, _⟩ => rfl)
  rw [val_main_v4_apply, val_main_v3_apply, val_main_v0_apply, val_main_v2_apply, val_main_v1_apply]
  unfold act
  simp only [el, er, eb, Ideal.hostUnary_tanh_def, Ideal.addf_def]

/-- The reference's first result is the moved batch. -/
theorem moved_eq (x0 : FVec Ideal S1048576x64 .f32) (x1 : FVec Ideal S64x1 .f32) (x2 : FVec Ideal S1 .f32) (x3 : FVec Ideal S1x64 .f32) :
    val_main_v6 (F := Ideal) x0 x1 x2 x3 = movedArr x0 x1 x2 x3 := by
  funext i
  obtain ⟨n, q, rfl⟩ : ∃ (n : Fin 1048576) (q : Fin 64), i = ix2 n q := ⟨i 0, i 1, eq_ix2 i⟩
  have er : ridx_main_v5 (ix2 n q) (0 : Fin 1) = ix2 (0 : Fin 1) q := funext fun a => Fin.ext (by
    match a with
    | ⟨0, _⟩ => rfl
    | ⟨1, _⟩ => rfl)
  rw [val_main_v6_apply, val_main_v5_apply, Fin.sum_univ_one, act_at x0 x1 x2 (lidx_main_v5 (ix2 n q) (0 : Fin 1)) n rfl, er]
  rfl

/-- The reference's second result is the log-determinants, for its own inner product. -/
theorem logDet_eq (x0 : FVec Ideal S1048576x64 .f32) (x1 : FVec Ideal S64x1 .f32) (x2 : FVec Ideal S1 .f32) (x3 : FVec Ideal S1x64 .f32) :
    val_main_v20 (F := Ideal) x0 x1 x2 x3 = logAbsDetArr x0 x1 x2 (innerProd x1 x3) := by
  funext i
  obtain ⟨n, rfl⟩ : ∃ n : Fin 1048576, i = ix1 n := ⟨i 0, eq_ix1 i⟩
  have e15 : idx_main_v15 (ix1 n) = ix0 := funext fun a => a.elim0
  rw [val_main_v20_apply, val_main_v19_apply, val_main_v18_apply, val_main_v17_apply, val_main_cst_1_apply, val_main_v16_apply,
    val_main_v14_apply, val_main_v13_apply, val_main_cst_0_apply, val_main_v12_apply, val_main_v11_apply, val_main_v15_apply,
    act_at x0 x1 x2 (idx_main_v11 (ix1 n)) n (Nat.div_one _), e15]
  rfl

end Cert.ReferenceIdeal.Hand

end
-- ==== Proof.lean ====
/-
  A planar flow and its log-determinant: the kernel against its reference, over the extended reals.

  For a batch z (1048576 rows of length 64), a column W0, a bias b0 and a row W1, both programs return
    x(n,q) = z(n,q) + t(n) · W1(0,q)        and        ld(n) = log |1 + (1 − t(n)²) · s|,
  where t(n) = tanh (Σ_d z(n,d) · W0(d,0) + b0) and s = Σ_d W0(d,0) · W1(0,d) (Proof/Spec.lean).

  The reference forms t by a matrix product with the column and the moved rows by a matrix product of the n × 1
  column t with the 1 × 64 row; read at an entry these are the sum over d and a sum of one term (Proof/RefSpec.lean).
  The kernel works on 128 blocks of 8192 rows. In each it multiplies the block by the column laid out as a row and
  sums along each row, re-lays the 8192 results as a dense 64 × 128 tile for tanh and the log-determinant, and
  re-lays the tanh tile back to a column to move the rows (Proof/Body.lean). A re-laying keeps the row-major
  position, so tile entry (r, l) is block row 128·r + l, and block t's rows are batch rows 8192·t …; the 128 blocks
  cover every row, so the two output arrays are the two functions above (Proof/Moved.lean, Proof/LogDet.lean), the
  second after the host flattens the dense array back to batch order (Proof/KernelRun.lean).
  Both programs compute s on the host by the same operations, so it is one number on both sides and is never opened.
  The only laws used are 0 + a = a and that a sum over one term is the term; neither needs the inputs finite.
  The kernel's word-level text and its idealized text are the same operations, none rewritten, so the fourth
  conjunct is trivial.
-/
import proofs.«168927_j54623394070880_2_alg».proof.Defs
import proofs.«168927_j54623394070880_2_alg».proof.Proof.Gen.Kernel
import proofs.«168927_j54623394070880_2_alg».proof.Proof.Gen.Kernel.Frame
import proofs.«168927_j54623394070880_2_alg».proof.Proof.Gen.KernelIdeal
import proofs.«168927_j54623394070880_2_alg».proof.Proof.Gen.KernelIdeal.Frame
import proofs.«168927_j54623394070880_2_alg».proof.Proof.Gen.ReferenceIdeal
import proofs.«168927_j54623394070880_2_alg».proof.Proof.Gen.Pre_finite_inputs
import proofs.«168927_j54623394070880_2_alg».proof.Proof.Gen.ReferenceIdeal.Run
import proofs.«168927_j54623394070880_2_alg».proof.Proof.Gen.ReferenceIdeal.Read
import proofs.«168927_j54623394070880_2_alg».proof.Proof.KernelRun
import proofs.«168927_j54623394070880_2_alg».proof.Proof.RefSpec
import Idealize.ShloMosaic.Adequacy
import Idealize.ShloMosaic.Init

noncomputable section

namespace Cert.Proof

open Idealize.ShloMosaic Idealize.SL.Sem

/-- The inner product of the column and the row is the same number in both programs: both flatten the two vectors to
    length 64, multiply entrywise and sum from zero. -/
theorem innerProd_agree (W0 : FVec Ideal Cert.KernelIdeal.S64x1 .f32) (W1 : FVec Ideal Cert.KernelIdeal.S1x64 .f32) :
    Cert.ReferenceIdeal.Hand.innerProd W0 W1 = Cert.KernelIdeal.HostSide.innerProd W0 W1 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- Run from memories that agree on the four arguments, the idealized kernel and the idealized reference end with
    the same moved batch and the same log-determinants. -/
theorem algebraic : Cert.algebraic_KernelIdeal_ReferenceIdeal := by
  intro m ρ m' ρ' _ hagree
  refine ⟨fun c => Cert.KernelIdeal.Blocks.movedOf m c, fun c => Cert.KernelIdeal.Blocks.logDetOf m c,
    Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · rw [a0, a1, a2, a3, Cert.ReferenceIdeal.Read.val_main_v6_eq, Cert.ReferenceIdeal.Hand.moved_eq]
  · rw [a0, a1, a2, a3, Cert.ReferenceIdeal.Read.val_main_v20_eq, Cert.ReferenceIdeal.Hand.logDet_eq, innerProd_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
